-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000 : Shape := ⟨1, ![100000]⟩
abbrev S2x1600000 : Shape := ⟨2, ![2, 1600000]⟩
abbrev S1600000 : Shape := ⟨1, ![1600000]⟩
abbrev S1600000x4 : Shape := ⟨2, ![1600000, 4]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x4 : S_.BroadcastsInDim S1600000x4 (![] : Fin 0 → Fin S1600000x4.rank)
  reducesTo_S1600000x4_S_d0_1 : S1600000x4.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg14 : FVec F S64x64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg14
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  main_v58

def fn_part2 {F : FTy → Type} [FloatOps F] (main_arg10 : FVec F S64 .f32) (main_arg11 : FVec F S64 .f32) (main_arg12 : FVec F S64x64 .f32) (main_arg13 : FVec F S64 .f32) (main_arg14 : FVec F S64x64 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg12
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg13
  let main_cst_18 : FVec F S_ .f32 := constant S_ .f32 0x7F800000#32
  let main_v50 : FVec F S64 .f32 := broadcastInDim S64 ![] bcast_S_S64 main_cst_18
  fn_part3 (F := F) main_arg14 main_v48 main_v49 main_v50

def fn_part1 {F : FTy → Type} [FloatOps F] (main_arg7 : FVec F S64x64 .f32) (main_arg8 : FVec F S64 .f32) (main_arg9 : FVec F S64 .f32) (main_arg10 : FVec F S64 .f32) (main_arg11 : FVec F S64 .f32) (main_arg12 : FVec F S64x64 .f32) (main_arg13 : FVec F S64 .f32) (main_arg14 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_arg12 main_arg13 main_arg14 main_v33

def fn {F : FTy → Type} [FloatOps F] (main_arg0 : FVec F S100000x64 .f32) (main_arg1 : IVec S100000 32) (main_arg2 : IVec S2x1600000 32) (main_arg3 : IVec S1600000 32) (main_arg4 : FVec F S1600000x4 .f32) (main_arg5 : FVec F S64x64 .f32) (main_arg6 : FVec F S64 .f32) (main_arg7 : FVec F S64x64 .f32) (main_arg8 : FVec F S64 .f32) (main_arg9 : FVec F S64 .f32) (main_arg10 : FVec F S64 .f32) (main_arg11 : FVec F S64 .f32) (main_arg12 : FVec F S64x64 .f32) (main_arg13 : FVec F S64 .f32) (main_arg14 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x4 .f32 := Host.absf main_arg4
  let main_cst_0 : FVec F S_ .f32 := constant S_ .f32 0x7F800000#32
  let main_v5 : FVec F S1600000x4 .f32 := broadcastInDim S1600000x4 ![] bcast_S_S1600000x4 main_cst_0
  let main_v6 : IVec S1600000x4 1 := cmpf .olt main_v4 main_v5
  let main_c_1 : IVec S_ 1 := constantI S_ 1 1#1
  let main_v7 : IVec S_ 1 := (fun x v => Host.reduce IntOp.andi x v reducesTo_S1600000x4_S_d0_1 h_S_) main_v6 main_c_1
  let main_v8 : IVec S_ 1 := andi main_v3 main_v7
  let main_v9 : FVec F S64x64 .f32 := Host.absf main_arg5
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_arg11 main_arg12 main_arg13 main_arg14 main_v13 main_v16
-- ==== Kernel.lean ====
abbrev S100000x64 : Shape := ⟨2, ![100000, 64]⟩
abbrev S100000 : Shape := ⟨1, ![100000]⟩
abbrev S2x1600000 : Shape := ⟨2, ![2, 1600000]⟩
abbrev S1600000 : Shape := ⟨1, ![1600000]⟩
abbrev S1600000x4 : Shape := ⟨2, ![1600000, 4]⟩
abbrev S64x64 : Shape := ⟨2, ![64, 64]⟩
abbrev S64 : Shape := ⟨1, ![64]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩

abbrev nBuf : Space → Nat
  | .hbm => 53
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S100000, .i32⟩
  | .hbm, ⟨2, _⟩ => ⟨S2x1600000, .i32⟩
  | .hbm, ⟨3, _⟩ => ⟨S1600000, .i32⟩
  | .hbm, ⟨4, _⟩ => ⟨S1600000x4, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S1x64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S100000x64, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .f32⟩
  | .hbm, ⟨47, _⟩ => ⟨S_, .f32⟩
  | .hbm, ⟨48, _⟩ => ⟨S100000x64, .f32⟩
  | .hbm, ⟨49, _⟩ => ⟨S1600000x1, .i32⟩
  | .hbm, ⟨50, _⟩ => ⟨S100000x64, .f32⟩
  | .hbm, ⟨51, _⟩ => ⟨S1x64, .f32⟩
  | .hbm, ⟨52, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S5000x64, .f32⟩
  | .local _ .vmem, ⟨21, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_1 : Ref sig .tc := ⟨.hbm, 38, rfl⟩
abbrev main_v20 : Ref sig .tc := ⟨.hbm, 39, rfl⟩
abbrev main_v21 : Ref sig .tc := ⟨.hbm, 40, rfl⟩
abbrev main_c_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S100000x64.size a
  hwx0_9 : ∀ i : grid0.Coords, EltTy.bits .f32 = 32 ∨ (Rect.block (s := S100000x64) S5000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v29) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S100000 : Shape := ⟨1, ![100000]⟩
abbrev S2x1600000 : Shape := ⟨2, ![2, 1600000]⟩
abbrev S1600000 : Shape := ⟨1, ![1600000]⟩
abbrev S1600000x4 : Shape := ⟨2, ![1600000, 4]⟩
abbrev S64x64 : Shape := ⟨2, ![64, 64]⟩
abbrev S64 : Shape := ⟨1, ![64]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 76
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000, .i32⟩
  | .hbm, ⟨2, _⟩ => ⟨S2x1600000, .i32⟩
  | .hbm, ⟨3, _⟩ => ⟨S1600000, .i32⟩
  | .hbm, ⟨4, _⟩ => ⟨S1600000x4, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S100000x64, .f32⟩
  | .hbm, ⟨56, _⟩ => ⟨S100000x64, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_1 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call0_cst : Ref sig .tc := ⟨.hbm, 54, rfl⟩
abbrev main_call0_v0 : Ref sig .tc := ⟨.hbm, 55, rfl⟩
abbrev main_v35 : Ref sig .tc := ⟨.hbm, 56, rfl⟩
abbrev main_c_2 : Ref sig .tc := ⟨.hbm, 57, rfl⟩
abbrev main_v36 : Ref sig .tc := ⟨.hbm, 58, rfl⟩
abbrev main_v37 : Ref sig .tc := ⟨.hbm, 59, rfl⟩
abbrev main_c_3 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_4 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelBoundary.lean ====
/-
  The kernel's run to its last boundary, at any float values.

  The program is two regions among two stretches of host operations. Its buffers' contents at the four boundaries are a
  fold from the launch memory: the host operations' results, then each region's arrays at what its write-backs leave.
  Every weakly fair execution terminates, nothing faulting, and in the final memory every buffer that outlives the
  regions holds the last boundary's contents: the arguments and the result array among them.
-/
import proofs.«141708_j62921270886789_1_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section AnyFloat

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, and in the final memory every buffer that outlives the regions holds the
    last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end AnyFloat

end Cert.KernelIdeal.Net

end
-- ==== Proof.Spec.lean ====
/-
  Two graph convolutions with a normalisation and a rectifier between them, as functions of extended reals.

  A graph convolution takes the node features `y` (100000 nodes, 64 features) and the neighbour sums `a` of the same
  shape and returns, at node `r` and output feature `j`,
      (Σ_k a[r,k] · W_rel[k,j] + b[j]) + Σ_k y[r,k] · W_root[k,j],
  the two sums over the 64 input features, associated exactly as written (the extended reals have no
  distributivity to spare, and none is needed). The hidden layer subtracts a running mean, multiplies by the inverse
  square root of a running variance plus a small constant, scales, shifts and clamps below at zero, feature by
  feature. The network is a convolution of the hidden layer with the neighbour sums OF the hidden layer; the
  neighbour-sum operator is a parameter here, since both programs compute it by the same host operations.
-/
import Idealize.ShloMosaic.PureOps.Ideal
import Idealize.ShloMosaic.Lib.ValueIdx

noncomputable section

namespace Cert.GraphConv

open Idealize.ShloMosaic Idealize.ShloMosaic.ValueIdx

/-- Node features: 100000 nodes by 64 features. -/
abbrev Nodes : Shape := ⟨2, ![100000, 64]⟩
/-- A weight matrix: 64 input features by 64 output features. -/
abbrev Wts : Shape := ⟨2, ![64, 64]⟩

/-- The variance's small additive constant, the binary32 number nearest to 1e-5 (the same word in both programs). -/
abbrev eps : EReal := Ideal.ofBits .f32 0x3727C5AC#32
/-- The rectifier's floor, the binary32 zero word. -/
abbrev floor0 : EReal := Ideal.ofBits .f32 0x00000000#32

/-- One convolution at node `r`, output feature `j`. -/
def linAt (a y : Nodes.Idx → EReal) (wr wo : Wts.Idx → EReal) (b : Fin 64 → EReal) (r : Fin 100000) (j : Fin 64) : EReal :=
  ((∑ k : Fin 64, a (ix2 r k) * wr (ix2 k j)) + b j) + ∑ k : Fin 64, y (ix2 r k) * wo (ix2 k j)

/-- The hidden layer at node `r`, feature `j`: the convolution, normalised by the running statistics `μ`, `σ2`,
    scaled by `γ`, shifted by `β`, clamped below at zero. -/
def hiddenAt (a x : Nodes.Idx → EReal) (wr wo : Wts.Idx → EReal) (b γ β μ σ2 : Fin 64 → EReal) (r : Fin 100000) (j : Fin 64) : EReal :=
  max ((((linAt a x wr wo b r j - μ j) * Ideal.rsqrt (σ2 j + eps)) * γ j) + β j) floor0

/-- The convolution as an array. -/
def lin (a y : Nodes.Idx → EReal) (wr wo : Wts.Idx → EReal) (b : Fin 64 → EReal) : Nodes.Idx → EReal :=
  fun i => linAt a y wr wo b ⟨(i 0).val, (i 0).isLt⟩ ⟨(i 1).val, (i 1).isLt⟩

/-- The hidden layer as an array. -/
def hidden (a x : Nodes.Idx → EReal) (wr wo : Wts.Idx → EReal) (b γ β μ σ2 : Fin 64 → EReal) : Nodes.Idx → EReal :=
  fun i => hiddenAt a x wr wo b γ β μ σ2 ⟨(i 0).val, (i 0).isLt⟩ ⟨(i 1).val, (i 1).isLt⟩

theorem lin_ix2 (a y : Nodes.Idx → EReal) (wr wo : Wts.Idx → EReal) (b : Fin 64 → EReal) (r : Fin 100000) (j : Fin 64) :
    lin a y wr wo b (ix2 r j) = linAt a y wr wo b r j := rfl

theorem hidden_ix2 (a x : Nodes.Idx → EReal) (wr wo : Wts.Idx → EReal) (b γ β μ σ2 : Fin 64 → EReal) (r : Fin 100000) (j : Fin 64) :
    hidden a x wr wo b γ β μ σ2 (ix2 r j) = hiddenAt a x wr wo b γ β μ σ2 r j := rfl

/-- The convolution depends on its bias only through its values. -/
theorem lin_congr {a y : Nodes.Idx → EReal} {wr wo : Wts.Idx → EReal} {b b' : Fin 64 → EReal} (hb : ∀ j, b j = b' j) :
    lin a y wr wo b = lin a y wr wo b' := by
  have e : b = b' := funext hb
  subst e; rfl

/-- The hidden layer depends on its five per-feature vectors only through their values. -/
theorem hidden_congr {a x : Nodes.Idx → EReal} {wr wo : Wts.Idx → EReal} {b b' γ γ' β β' μ μ' σ2 σ2' : Fin 64 → EReal}
    (hb : ∀ j, b j = b' j) (hγ : ∀ j, γ j = γ' j) (hβ : ∀ j, β j = β' j) (hμ : ∀ j, μ j = μ' j) (hσ : ∀ j, σ2 j = σ2' j) :
    hidden a x wr wo b γ β μ σ2 = hidden a x wr wo b' γ' β' μ' σ2' := by
  have e1 : b = b' := funext hb
  have e2 : γ = γ' := funext hγ
  have e3 : β = β' := funext hβ
  have e4 : μ = μ' := funext hμ
  have e5 : σ2 = σ2' := funext hσ
  subst e1 e2 e3 e4 e5; rfl

/-- The whole network, given the neighbour-sum operator `S`: the second convolution of the hidden layer `h` with
    the neighbour sums of `h`, where `h` is the hidden layer of the input `x` with the neighbour sums of `x`. -/
def net (S : (Nodes.Idx → EReal) → Nodes.Idx → EReal) (x : Nodes.Idx → EReal)
    (wr1 wo1 : Wts.Idx → EReal) (b1 γ β μ σ2 : Fin 64 → EReal) (wr2 wo2 : Wts.Idx → EReal) (b2 : Fin 64 → EReal) : Nodes.Idx → EReal :=
  lin (S (hidden (S x) x wr1 wo1 b1 γ β μ σ2)) (hidden (S x) x wr1 wo1 b1 γ β μ σ2) wr2 wo2 b2

end Cert.GraphConv

end
-- ==== Proof.KernelBody.lean ====
/-
  The two kernel bodies' arithmetic, read at one entry of a 5000-row block, at the ideal instance.

  Each body multiplies a block of 5000 rows by a 64×64 weight matrix on the matrix unit, into a zero accumulator:
  at the extended reals that is the plain sum over the 64 contracted features (the narrowing of the operands to a
  shorter float format is the identity there). The one-row operands (bias, statistics, scale, shift) are broadcast
  down the rows, so at row `p`, column `q` they are read at column `q` of their only row. Everything else is
  entrywise.
-/
import proofs.«141708_j62921270886789_1_alg».proof.Proof.Gen.KernelIdeal.Skeleton
import Idealize.ShloMosaic.Lib.Pipeline.Value
import Idealize.ShloMosaic.Lib.ValueIdx
import Idealize.ShloMosaic.PureOps.Ideal.Laws

noncomputable section
namespace Cert.KernelIdeal.Body
open Cert.KernelIdeal Cert.KernelIdeal.Gen Idealize.ShloMosaic Idealize.ShloMosaic.ValueIdx

/-- The operand indices of the block product at output entry `i` and contracted feature `κ`: row `i 0`, column `κ` on the
    left; row `κ`, column `i 1` on the right. -/
theorem lhsRow (i : S5000x64.Idx) (κ : dot_S5000x64_S64x64_S5000x64_1_0_0_1_n_n.contr.Idx) : (dot_S5000x64_S64x64_S5000x64_1_0_0_1_n_n.lhsIdx i κ 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsCol (i : S5000x64.Idx) (κ : dot_S5000x64_S64x64_S5000x64_1_0_0_1_n_n.contr.Idx) : (dot_S5000x64_S64x64_S5000x64_1_0_0_1_n_n.lhsIdx i κ 1).val = (κ ⟨0, by decide⟩).val :=
  dot_S5000x64_S64x64_S5000x64_1_0_0_1_n_n.lhsIdx_val_of_single rfl i κ
theorem rhsRow (i : S5000x64.Idx) (κ : dot_S5000x64_S64x64_S5000x64_1_0_0_1_n_n.contr.Idx) : (dot_S5000x64_S64x64_S5000x64_1_0_0_1_n_n.rhsIdx i κ 0).val = (κ ⟨0, by decide⟩).val :=
  dot_S5000x64_S64x64_S5000x64_1_0_0_1_n_n.rhsIdx_val_of_single rfl i κ
theorem rhsCol (i : S5000x64.Idx) (κ : dot_S5000x64_S64x64_S5000x64_1_0_0_1_n_n.contr.Idx) : (dot_S5000x64_S64x64_S5000x64_1_0_0_1_n_n.rhsIdx i κ 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block product into the zero accumulator, at row `p` and column `q`, is the sum over the 64 contracted features. -/
theorem blockDot_apply (l : FVec Ideal S5000x64 .bf16) (r : FVec Ideal S64x64 .bf16) (p : Fin 5000) (q : Fin 64) :
    matmul (F := Ideal) dot_S5000x64_S64x64_S5000x64_1_0_0_1_n_n none l r (constant (F := Ideal) S5000x64 .f32 0x00000000#32) (ix2 p q)
      = ∑ k : Fin 64, l (ix2 p k) * r (ix2 k q) := by
  refine (Ideal.matmul_constant_zero_apply dot_S5000x64_S64x64_S5000x64_1_0_0_1_n_n none l r (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun a => Fin.ext (by
      match a with
      | ⟨0, _⟩ => exact lhsRow _ _
      | ⟨1, _⟩ => exact (lhsCol _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun a => Fin.ext (by
      match a with
      | ⟨0, _⟩ => exact (rhsRow _ _).trans hk
      | ⟨1, _⟩ => exact rhsCol _ _)
  rw [el, er]

/-- A one-row vector broadcast down 5000 rows reads its only row. -/
theorem rowBcast_apply {α : Type} (v : S1x64.Idx → α) (p : Fin 5000) (q : Fin 64) :
    broadcastTo S5000x64 v broadcasts_S1x64_S5000x64 (ix2 p q) = v (ix2 0 q) :=
  broadcastTo_apply v broadcasts_S1x64_S5000x64 (ix2 p q) (ix2 0 q) (fun a => by
    match a with
    | ⟨0, _⟩ => rfl
    | ⟨1, _⟩ => rfl)

/-- The first body's stored value at row `p`, column `q` of its block: the convolution of the two row blocks,
    normalised, scaled, shifted and clamped at zero. -/
theorem hiddenBlock_apply (A X : Vec Ideal S5000x64 .f32) (WR WO : Vec Ideal S64x64 .f32) (B VAR MEAN GAMMA BETA : Vec Ideal S1x64 .f32)
    (p : Fin 5000) (q : Fin 64) :
    k0_pay1 (F := Ideal) A X WR WO B VAR MEAN GAMMA BETA (ix2 p q)
      = max ((((((∑ k : Fin 64, A (ix2 p k) * WR (ix2 k q)) + B (ix2 0 q)) + ∑ k : Fin 64, X (ix2 p k) * WO (ix2 k q)) - MEAN (ix2 0 q))
            * Ideal.rsqrt (VAR (ix2 0 q) + Ideal.ofBits .f32 0x3727C5AC#32)) * GAMMA (ix2 0 q) + BETA (ix2 0 q))
          (Ideal.ofBits .f32 0x00000000#32) := by
  unfold k0_pay1
  simp only [shapeCast_self]
  simp only [maximumf_apply, addf_apply, mulf_apply, subf_apply, rowBcast_apply, blockDot_apply, truncf_apply, broadcast_apply]
  rfl

/-- The second body's stored value at row `p`, column `q` of its block: the convolution of the two row blocks. -/
theorem outBlock_apply (A H : Vec Ideal S5000x64 .f32) (WR WO : Vec Ideal S64x64 .f32) (B : Vec Ideal S1x64 .f32)
    (p : Fin 5000) (q : Fin 64) :
    k1_pay1 (F := Ideal) A H WR WO B (ix2 p q)
      = ((∑ k : Fin 64, A (ix2 p k) * WR (ix2 k q)) + B (ix2 0 q)) + ∑ k : Fin 64, H (ix2 p k) * WO (ix2 k q) := by
  unfold k1_pay1
  simp only [shapeCast_self]
  simp only [addf_apply, rowBcast_apply, blockDot_apply, truncf_apply]

end Cert.KernelIdeal.Body
end
-- ==== Proof.KernelBlocks.lean ====
/-
  From blocks to arrays, for both regions, at any contents `V` the region may find on entry.

  Each region walks 20 grid points; point `t` stages rows 5000·t … 5000·t + 4999 of the two row-blocked inputs, the
  whole of each 64×64 weight matrix and each one-row operand, runs the body once and writes rows 5000·t … 5000·t + 4999
  of the output back. Row `p` of point `t`'s block is row 5000·t + p of the array, so what point `t` writes back is
  block `t` of ONE function of the whole entry arrays: the hidden layer in the first region, the convolution in the
  second. The 20 blocks tile the 100000 rows (row `r` lies in block `r / 5000`), so after the region the output array
  is that function.
-/
import proofs.«141708_j62921270886789_1_alg».proof.Proof.Gen.KernelIdeal.Frame
import proofs.«141708_j62921270886789_1_alg».proof.Proof.Spec
import proofs.«141708_j62921270886789_1_alg».proof.Proof.KernelBody
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Body Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- Row `p` of the block of 5000 rows at grid point number `n`, as a row of the whole array. -/
def rowAt (n : Nat) (hn : n < 20) (p : Fin 5000) : Fin 100000 := ⟨n * 5000 + p.val, by have := p.isLt; omega⟩

/-! ## The first region -/

theorem lt20_0 (t : Fin cfg0.N) : t.val < 20 := lt_of_lt_of_eq t.isLt N_0

/-- The printed index maps of the first region, decided over its 20 points: the two row-blocked inputs and the
    output sit at block row `t`, the weights and the five one-row operands at their only block. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem agg1_blk (c : Dev nD) (t : Fin cfg0.N) (p : Fin 5000) (k : Fin 64) :
    iblk0 V c 0 t (ix2 p k) = V c main_v13 (ix2 (rowAt t.val (lt20_0 t) p) k) := by
  obtain ⟨e0, e1, -⟩ := idx0 t
  show V c main_v13 (((cfg0.win 0).blk t).view.emb (ix2 p k)) = _
  refine congrArg (V c main_v13) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 64 + 1 * k.val = k.val; rw [e1]; omega

theorem x_blk (c : Dev nD) (t : Fin cfg0.N) (p : Fin 5000) (k : Fin 64) :
    iblk0 V c 1 t (ix2 p k) = V c main_arg0 (ix2 (rowAt t.val (lt20_0 t) p) k) := by
  obtain ⟨-, -, e0, e1, -⟩ := idx0 t
  show V c main_arg0 (((cfg0.win 1).blk t).view.emb (ix2 p k)) = _
  refine congrArg (V c main_arg0) (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 64 + 1 * k.val = k.val; rw [e1]; omega

theorem wrel1_blk (c : Dev nD) (t : Fin cfg0.N) (k q : Fin 64) :
    iblk0 V c 2 t (ix2 k q) = V c main_arg5 (ix2 k q) := by
  obtain ⟨-, -, -, -, e0, e1, -⟩ := idx0 t
  show V c main_arg5 (((cfg0.win 2).blk t).view.emb (ix2 k q)) = _
  refine congrArg (V c main_arg5) (funext fun a => Fin.ext ?_)
  match a with
  | ⟨0, _⟩ => show win0_2.index t (0 : Fin 2) * 64 + 1 * k.val = k.val; rw [e0]; omega
  | ⟨1, _⟩ => show win0_2.index t (1 : Fin 2) * 64 + 1 * q.val = q.val; rw [e1]; omega

theorem bias1_blk (c : Dev nD) (t : Fin cfg0.N) (q : Fin 64) :
    iblk0 V c 3 t (ix2 0 q) = V c main_v14 (ix2 0 q) := by
  obtain ⟨-, -, -, -, -, -, e0, e1, -⟩ := idx0 t
  show V c main_v14 (((cfg0.win 3).blk t).view.emb (ix2 0 q)) = _
  refine congrArg (V c main_v14) (funext fun a => Fin.ext ?_)
  match a with
  | ⟨0, _⟩ => show win0_3.index t (0 : Fin 2) * 1 + 1 * 0 = 0; rw [e0]
  | ⟨1, _⟩ => show win0_3.index t (1 : Fin 2) * 64 + 1 * q.val = q.val; rw [e1]; omega

theorem wroot1_blk (c : Dev nD) (t : Fin cfg0.N) (k q : Fin 64) :
    iblk0 V c 4 t (ix2 k q) = V c main_arg7 (ix2 k q) := by
  obtain ⟨-, -, -, -, -, -, -, -, e0, e1, -⟩ := idx0 t
  show V c main_arg7 (((cfg0.win 4).blk t).view.emb (ix2 k q)) = _
  refine congrArg (V c main_arg7) (funext fun a => Fin.ext ?_)
  match a with
  | ⟨0, _⟩ => show win0_4.index t (0 : Fin 2) * 64 + 1 * k.val = k.val; rw [e0]; omega
  | ⟨1, _⟩ => show win0_4.index t (1 : Fin 2) * 64 + 1 * q.val = q.val; rw [e1]; omega

theorem scale_blk (c : Dev nD) (t : Fin cfg0.N) (q : Fin 64) :
    iblk0 V c 5 t (ix2 0 q) = V c main_v15 (ix2 0 q) := by
  obtain ⟨-, -, -, -, -, -, -, -, -, -, e0, e1, -⟩ := idx0 t
  show V c main_v15 (((cfg0.win 5).blk t).view.emb (ix2 0 q)) = _
  refine congrArg (V c main_v15) (funext fun a => Fin.ext ?_)
  match a with
  | ⟨0, _⟩ => show win0_5.index t (0 : Fin 2) * 1 + 1 * 0 = 0; rw [e0]
  | ⟨1, _⟩ => show win0_5.index t (1 : Fin 2) * 64 + 1 * q.val = q.val; rw [e1]; omega

theorem shift_blk (c : Dev nD) (t : Fin cfg0.N) (q : Fin 64) :
    iblk0 V c 6 t (ix2 0 q) = V c main_v16 (ix2 0 q) := by
  obtain ⟨-, -, -, -, -, -, -, -, -, -, -, -, e0, e1, -⟩ := idx0 t
  show V c main_v16 (((cfg0.win 6).blk t).view.emb (ix2 0 q)) = _
  refine congrArg (V c main_v16) (funext fun a => Fin.ext ?_)
  match a with
  | ⟨0, _⟩ => show win0_6.index t (0 : Fin 2) * 1 + 1 * 0 = 0; rw [e0]
  | ⟨1, _⟩ => show win0_6.index t (1 : Fin 2) * 64 + 1 * q.val = q.val; rw [e1]; omega

theorem mean_blk (c : Dev nD) (t : Fin cfg0.N) (q : Fin 64) :
    iblk0 V c 7 t (ix2 0 q) = V c main_v17 (ix2 0 q) := by
  obtain ⟨-, -, -, -, -, -, -, -, -, -, -, -, -, -, e0, e1, -⟩ := idx0 t
  show V c main_v17 (((cfg0.win 7).blk t).view.emb (ix2 0 q)) = _
  refine congrArg (V c main_v17) (funext fun a => Fin.ext ?_)
  match a with
  | ⟨0, _⟩ => show win0_7.index t (0 : Fin 2) * 1 + 1 * 0 = 0; rw [e0]
  | ⟨1, _⟩ => show win0_7.index t (1 : Fin 2) * 64 + 1 * q.val = q.val; rw [e1]; omega

theorem var_blk (c : Dev nD) (t : Fin cfg0.N) (q : Fin 64) :
    iblk0 V c 8 t (ix2 0 q) = V c main_v18 (ix2 0 q) := by
  obtain ⟨-, -, -, -, -, -, -, -, -, -, -, -, -, -, -, -, e0, e1, -⟩ := idx0 t
  show V c main_v18 (((cfg0.win 8).blk t).view.emb (ix2 0 q)) = _
  refine congrArg (V c main_v18) (funext fun a => Fin.ext ?_)
  match a with
  | ⟨0, _⟩ => show win0_8.index t (0 : Fin 2) * 1 + 1 * 0 = 0; rw [e0]
  | ⟨1, _⟩ => show win0_8.index t (1 : Fin 2) * 64 + 1 * q.val = q.val; rw [e1]; omega

/-- What the hidden array holds after the first region, as a function of the arrays the region finds. -/
abbrev out1 (c : Dev nD) : Nodes.Idx → EReal :=
  hidden (V c main_v13) (V c main_arg0) (V c main_arg5) (V c main_arg7) (fun j => V c main_v14 (ix2 0 j))
    (fun j => V c main_v15 (ix2 0 j)) (fun j => V c main_v16 (ix2 0 j)) (fun j => V c main_v17 (ix2 0 j)) (fun j => V c main_v18 (ix2 0 j))

/-- What point `t` writes back is block `t` of that function. -/
theorem flushed0_eq (c : Dev nD) (t : Fin cfg0.N) :
    (dat0 V c).flushed 9 t = ((cfg0.win 9).blk t).view.read (Elt Ideal) (out1 V c) := by
  show (cfg0.win 9).cut (grid0.coords t) ((dat0 V c).after 9 t) = _
  rw [after0_9]
  unfold out0_9
  rw [View.canon_unit_zero zeroOffsets]
  simp only [View.ld_unit_zero (S := S5000x64) zeroOffsets, View.ld_unit_zero (S := S64x64) zeroOffsets, View.ld_unit_zero (S := S1x64) zeroOffsets]
  funext y
  obtain ⟨p, q, rfl⟩ : ∃ (p : Fin 5000) (q : Fin 64), y = ix2 p q := ⟨y 0, y 1, eq_ix2 y⟩
  obtain ⟨-, -, -, -, -, -, -, -, -, -, -, -, -, -, -, -, -, -, e0, e1⟩ := idx0 t
  have hrow : ((cfg0.win 9).blk t).view.emb (ix2 p q) = ix2 (rowAt t.val (lt20_0 t) p) q := by
    funext a; apply Fin.ext
    match a with
    | ⟨0, _⟩ => show win0_9.index t (0 : Fin 2) * 5000 + 1 * p.val = t.val * 5000 + p.val; rw [e0]; omega
    | ⟨1, _⟩ => show win0_9.index t (1 : Fin 2) * 64 + 1 * q.val = q.val; rw [e1]; omega
  show k0_pay1 (F := Ideal) (iblk0 V c 0 t) (iblk0 V c 1 t) (iblk0 V c 2 t) (iblk0 V c 4 t) (iblk0 V c 3 t) (iblk0 V c 8 t) (iblk0 V c 7 t)
        (iblk0 V c 5 t) (iblk0 V c 6 t) (ix2 p q)
      = out1 V c (((cfg0.win 9).blk t).view.emb (ix2 p q))
  rw [hrow]
  refine (hiddenBlock_apply (iblk0 V c 0 t) (iblk0 V c 1 t) (iblk0 V c 2 t) (iblk0 V c 4 t) (iblk0 V c 3 t) (iblk0 V c 8 t) (iblk0 V c 7 t)
    (iblk0 V c 5 t) (iblk0 V c 6 t) p q).trans ?_
  show _ = hiddenAt _ _ _ _ _ _ _ _ _ (rowAt t.val (lt20_0 t) p) q
  unfold hiddenAt linAt
  simp only [agg1_blk, x_blk, wrel1_blk, bias1_blk, wroot1_blk, scale_blk, shift_blk, mean_blk, var_blk]

/-- An entry of the array lies in point `t`'s block iff each coordinate lies in the block's range on its axis. -/
theorem mem_blk0 (t : Fin cfg0.N) (i : S100000x64.Idx) :
    i ∈ ((cfg0.win 9).blk t).view.set ↔ ∀ a : Fin 2, win0_9.index t a * S5000x64.size a ≤ (i a).val ∧ (i a).val < win0_9.index t a * S5000x64.size a + S5000x64.size a := by
  show i ∈ ((View.whole main_v19).slice (win0_9.rect t)).set ↔ _
  rw [View.set_slice_whole, Rect.mem_set_unit]
  exact Iff.rfl

/-- The 20 blocks of 5000 rows tile the 100000 rows: row `r` is in block `r / 5000`. -/
theorem cover0 (i : S100000x64.Idx) : ∃ t : Fin cfg0.N, (cfg0.win 9).flush t = true ∧ i ∈ ((cfg0.win 9).blk t).view.set := by
  have hi0 : (i 0).val < 100000 := (i 0).isLt
  have hi1 : (i 1).val < 64 := (i 1).isLt
  have ht : (i 0).val / 5000 < cfg0.N := by rw [show cfg0.N = 20 from N_0]; omega
  obtain ⟨-, -, -, -, -, -, -, -, -, -, -, -, -, -, -, -, -, -, e0, e1⟩ := idx0 ⟨(i 0).val / 5000, ht⟩
  refine ⟨⟨(i 0).val / 5000, ht⟩, flush0_9 _, ?_⟩
  rw [mem_blk0]
  intro a
  match a with
  | ⟨0, _⟩ =>
    show win0_9.index ⟨(i 0).val / 5000, ht⟩ (0 : Fin 2) * 5000 ≤ (i 0).val ∧ (i 0).val < win0_9.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_9.index ⟨(i 0).val / 5000, ht⟩ (1 : Fin 2) * 64 ≤ (i 1).val ∧ (i 1).val < win0_9.index ⟨(i 0).val / 5000, ht⟩ (1 : Fin 2) * 64 + 64
    rw [e1]; omega

/-- The hidden array after the first region is the hidden layer of the arrays the region finds. -/
theorem array1 (c : Dev nD) : (dat0 V c).arrAt 9 cfg0.N = out1 V c :=
  (dat0 V c).arrAt_eq_of_cover 9 (out1 V c) (fun t _ => flushed0_eq V c t) cover0

/-! ## The second region -/

theorem lt20_1 (t : Fin cfg1.N) : t.val < 20 := lt_of_lt_of_eq t.isLt N_1

/-- The printed index maps of the second region, decided over its 20 points: the two row-blocked inputs and the
    output sit at block row `t`, the weights and the bias at their only block. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem agg2_blk (c : Dev nD) (t : Fin cfg1.N) (p : Fin 5000) (k : Fin 64) :
    iblk1 V c 0 t (ix2 p k) = V c main_v29 (ix2 (rowAt t.val (lt20_1 t) p) k) := by
  obtain ⟨e0, e1, -⟩ := idx1 t
  show V c main_v29 (((cfg1.win 0).blk t).view.emb (ix2 p k)) = _
  refine congrArg (V c main_v29) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 64 + 1 * k.val = k.val; rw [e1]; omega

theorem hid_blk (c : Dev nD) (t : Fin cfg1.N) (p : Fin 5000) (k : Fin 64) :
    iblk1 V c 1 t (ix2 p k) = V c main_v19 (ix2 (rowAt t.val (lt20_1 t) p) k) := by
  obtain ⟨-, -, e0, e1, -⟩ := idx1 t
  show V c main_v19 (((cfg1.win 1).blk t).view.emb (ix2 p k)) = _
  refine congrArg (V c main_v19) (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 64 + 1 * k.val = k.val; rw [e1]; omega

theorem wrel2_blk (c : Dev nD) (t : Fin cfg1.N) (k q : Fin 64) :
    iblk1 V c 2 t (ix2 k q) = V c main_arg12 (ix2 k q) := by
  obtain ⟨-, -, -, -, e0, e1, -⟩ := idx1 t
  show V c main_arg12 (((cfg1.win 2).blk t).view.emb (ix2 k q)) = _
  refine congrArg (V c main_arg12) (funext fun a => Fin.ext ?_)
  match a with
  | ⟨0, _⟩ => show win1_2.index t (0 : Fin 2) * 64 + 1 * k.val = k.val; rw [e0]; omega
  | ⟨1, _⟩ => show win1_2.index t (1 : Fin 2) * 64 + 1 * q.val = q.val; rw [e1]; omega

theorem bias2_blk (c : Dev nD) (t : Fin cfg1.N) (q : Fin 64) :
    iblk1 V c 3 t (ix2 0 q) = V c main_v30 (ix2 0 q) := by
  obtain ⟨-, -, -, -, -, -, e0, e1, -⟩ := idx1 t
  show V c main_v30 (((cfg1.win 3).blk t).view.emb (ix2 0 q)) = _
  refine congrArg (V c main_v30) (funext fun a => Fin.ext ?_)
  match a with
  | ⟨0, _⟩ => show win1_3.index t (0 : Fin 2) * 1 + 1 * 0 = 0; rw [e0]
  | ⟨1, _⟩ => show win1_3.index t (1 : Fin 2) * 64 + 1 * q.val = q.val; rw [e1]; omega

theorem wroot2_blk (c : Dev nD) (t : Fin cfg1.N) (k q : Fin 64) :
    iblk1 V c 4 t (ix2 k q) = V c main_arg14 (ix2 k q) := by
  obtain ⟨-, -, -, -, -, -, -, -, e0, e1, -⟩ := idx1 t
  show V c main_arg14 (((cfg1.win 4).blk t).view.emb (ix2 k q)) = _
  refine congrArg (V c main_arg14) (funext fun a => Fin.ext ?_)
  match a with
  | ⟨0, _⟩ => show win1_4.index t (0 : Fin 2) * 64 + 1 * k.val = k.val; rw [e0]; omega
  | ⟨1, _⟩ => show win1_4.index t (1 : Fin 2) * 64 + 1 * q.val = q.val; rw [e1]; omega

/-- What the output array holds after the second region, as a function of the arrays the region finds. -/
abbrev out2 (c : Dev nD) : Nodes.Idx → EReal :=
  lin (V c main_v29) (V c main_v19) (V c main_arg12) (V c main_arg14) (fun j => V c main_v30 (ix2 0 j))

/-- What point `t` writes back is block `t` of that function. -/
theorem flushed1_eq (c : Dev nD) (t : Fin cfg1.N) :
    (dat1 V c).flushed 5 t = ((cfg1.win 5).blk t).view.read (Elt Ideal) (out2 V c) := by
  show (cfg1.win 5).cut (grid1.coords t) ((dat1 V c).after 5 t) = _
  rw [after1_5]
  unfold out1_5
  rw [View.canon_unit_zero zeroOffsets]
  simp only [View.ld_unit_zero (S := S5000x64) zeroOffsets, View.ld_unit_zero (S := S64x64) zeroOffsets, View.ld_unit_zero (S := S1x64) zeroOffsets]
  funext y
  obtain ⟨p, q, rfl⟩ : ∃ (p : Fin 5000) (q : Fin 64), y = ix2 p q := ⟨y 0, y 1, eq_ix2 y⟩
  obtain ⟨-, -, -, -, -, -, -, -, -, -, e0, e1⟩ := idx1 t
  have hrow : ((cfg1.win 5).blk t).view.emb (ix2 p q) = ix2 (rowAt t.val (lt20_1 t) p) q := by
    funext a; apply Fin.ext
    match a with
    | ⟨0, _⟩ => show win1_5.index t (0 : Fin 2) * 5000 + 1 * p.val = t.val * 5000 + p.val; rw [e0]; omega
    | ⟨1, _⟩ => show win1_5.index t (1 : Fin 2) * 64 + 1 * q.val = q.val; rw [e1]; omega
  show k1_pay1 (F := Ideal) (iblk1 V c 0 t) (iblk1 V c 1 t) (iblk1 V c 2 t) (iblk1 V c 4 t) (iblk1 V c 3 t) (ix2 p q)
      = out2 V c (((cfg1.win 5).blk t).view.emb (ix2 p q))
  rw [hrow]
  refine (outBlock_apply (iblk1 V c 0 t) (iblk1 V c 1 t) (iblk1 V c 2 t) (iblk1 V c 4 t) (iblk1 V c 3 t) p q).trans ?_
  show _ = linAt _ _ _ _ _ (rowAt t.val (lt20_1 t) p) q
  unfold linAt
  simp only [agg2_blk, hid_blk, wrel2_blk, bias2_blk, wroot2_blk]

/-- An entry of the array lies in point `t`'s block iff each coordinate lies in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v31).slice (win1_5.rect t)).set ↔ _
  rw [View.set_slice_whole, Rect.mem_set_unit]
  exact Iff.rfl

/-- The 20 blocks of 5000 rows tile the 100000 rows: row `r` is in block `r / 5000`. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have ht : (i 0).val / 5000 < cfg1.N := by rw [show cfg1.N = 20 from N_1]; omega
  obtain ⟨-, -, -, -, -, -, -, -, -, -, e0, e1⟩ := idx1 ⟨(i 0).val / 5000, ht⟩
  refine ⟨⟨(i 0).val / 5000, ht⟩, flush1_5 _, ?_⟩
  rw [mem_blk1]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 64 ≤ (i 1).val ∧ (i 1).val < win1_5.index ⟨(i 0).val / 5000, ht⟩ (1 : Fin 2) * 64 + 64
    rw [e1]; omega

/-- The output array after the second region is the convolution of the arrays the region finds. -/
theorem array2 (c : Dev nD) : (dat1 V c).arrAt 5 cfg1.N = out2 V c :=
  (dat1 V c).arrAt_eq_of_cover 5 (out2 V c) (fun t _ => flushed1_eq V c t) cover1

end Cert.KernelIdeal.Blocks

end
-- ==== Proof.KernelHost.lean ====
/-
  What each region finds on entry, in terms of the launch memory.

  Before the first region the host computes the neighbour sums of the input (a gather of rows at the edges' sources, then
  an add-scatter into zeros at the edges' destinations) and reshapes the bias and the four normalisation vectors to one
  row each; the weights and the input itself are arguments no operation writes. Between the regions it computes the
  neighbour sums of the hidden array the first region left, over the same edge rows (which the first region does not
  touch), and reshapes the second bias. The neighbour sum is kept as ONE definition and never opened: the reference
  computes it by the same operations.
-/
import proofs.«141708_j62921270886789_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.ShloMosaic.ValueIdx Idealize.SL.Sem Idealize.ShloMosaic.StableHlo

/-- The source node of every edge: row 0 of the edge list. -/
def srcRow (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- The destination node of every edge: row 1 of the edge list. -/
def dstRow (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The neighbour sums of node features `y` over edges with sources `s` and destinations `d`: the rows of `y` gathered
    at the sources (a negative source counted from the end), added into a zero array at the destinations. -/
def nbrSumOf (s d : (⟨S1600000, .i32⟩ : BufTy).Contents (Elt Ideal)) (y : (⟨S100000x64, .f32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Host.gather gather_S100000x64_S1600000x1_S1600000x64_1_0_n_n_0_1_164 y
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The neighbour sums over the edge list `e`. -/
def nbrSum (e : (⟨S2x1600000, .i32⟩ : BufTy).Contents (Elt Ideal)) (y : (⟨S100000x64, .f32⟩ : BufTy).Contents (Elt Ideal)) :
    (⟨S100000x64, .f32⟩ : BufTy).Contents (Elt Ideal) :=
  nbrSumOf (srcRow e) (dstRow e) y

variable (m : (ℓ : Loc nD τ sig) → Buf (Elt Ideal) ℓ) (ρ : Dev nD → PrngReg)

/-! ## What the first region finds -/

theorem agg1_eq (c : Dev nD) :
    V1 m ρ c main_v13 = nbrSum (m ((c : Thread nD τ).loc main_arg2)) (m ((c : Thread nD τ).loc main_arg0)) := by
  show StableHlo.after hostOps0 (W0 m ρ c) (Proc.devRef .tc main_v13) = _
  after_results
  rfl

theorem x_eq (c : Dev nD) : V1 m ρ c main_arg0 = m ((c : Thread nD τ).loc main_arg0) := by
  show StableHlo.after hostOps0 (W0 m ρ c) (Proc.devRef .tc main_arg0) = _
  after_results

theorem wrel1_eq (c : Dev nD) : V1 m ρ c main_arg5 = m ((c : Thread nD τ).loc main_arg5) := by
  show StableHlo.after hostOps0 (W0 m ρ c) (Proc.devRef .tc main_arg5) = _
  after_results

theorem wroot1_eq (c : Dev nD) : V1 m ρ c main_arg7 = m ((c : Thread nD τ).loc main_arg7) := by
  show StableHlo.after hostOps0 (W0 m ρ c) (Proc.devRef .tc main_arg7) = _
  after_results

/-- A 64-vector reshaped to one row of 64, read at column `j`. -/
theorem rowOfVec_apply (v : (⟨S64, .f32⟩ : BufTy).Contents (Elt Ideal)) (j : Fin 64) :
    shapeCast S1x64 v shapeCasts_S64_S1x64 (ix2 0 j) = v (ix1 j) :=
  shapeCast_apply v shapeCasts_S64_S1x64 (ix2 0 j) (ix1 j)
    (by rewrite [Shape.rowMajor_val_one, Shape.rowMajor_val_two]; show j.val = 0 * 64 + j.val; omega)

theorem bias1_eq (c : Dev nD) (j : Fin 64) : V1 m ρ c main_v14 (ix2 0 j) = m ((c : Thread nD τ).loc main_arg6) (ix1 j) := by
  have e : V1 m ρ c main_v14 = shapeCast S1x64 (m ((c : Thread nD τ).loc main_arg6)) shapeCasts_S64_S1x64 := by
    show StableHlo.after hostOps0 (W0 m ρ c) (Proc.devRef .tc main_v14) = _
    after_results
    rfl
  rw [e]; exact rowOfVec_apply _ j

theorem scale_eq (c : Dev nD) (j : Fin 64) : V1 m ρ c main_v15 (ix2 0 j) = m ((c : Thread nD τ).loc main_arg8) (ix1 j) := by
  have e : V1 m ρ c main_v15 = shapeCast S1x64 (m ((c : Thread nD τ).loc main_arg8)) shapeCasts_S64_S1x64 := by
    show StableHlo.after hostOps0 (W0 m ρ c) (Proc.devRef .tc main_v15) = _
    after_results
    rfl
  rw [e]; exact rowOfVec_apply _ j

theorem shift_eq (c : Dev nD) (j : Fin 64) : V1 m ρ c main_v16 (ix2 0 j) = m ((c : Thread nD τ).loc main_arg9) (ix1 j) := by
  have e : V1 m ρ c main_v16 = shapeCast S1x64 (m ((c : Thread nD τ).loc main_arg9)) shapeCasts_S64_S1x64 := by
    show StableHlo.after hostOps0 (W0 m ρ c) (Proc.devRef .tc main_v16) = _
    after_results
    rfl
  rw [e]; exact rowOfVec_apply _ j

theorem mean_eq (c : Dev nD) (j : Fin 64) : V1 m ρ c main_v17 (ix2 0 j) = m ((c : Thread nD τ).loc main_arg10) (ix1 j) := by
  have e : V1 m ρ c main_v17 = shapeCast S1x64 (m ((c : Thread nD τ).loc main_arg10)) shapeCasts_S64_S1x64 := by
    show StableHlo.after hostOps0 (W0 m ρ c) (Proc.devRef .tc main_v17) = _
    after_results
    rfl
  rw [e]; exact rowOfVec_apply _ j

theorem var_eq (c : Dev nD) (j : Fin 64) : V1 m ρ c main_v18 (ix2 0 j) = m ((c : Thread nD τ).loc main_arg11) (ix1 j) := by
  have e : V1 m ρ c main_v18 = shapeCast S1x64 (m ((c : Thread nD τ).loc main_arg11)) shapeCasts_S64_S1x64 := by
    show StableHlo.after hostOps0 (W0 m ρ c) (Proc.devRef .tc main_v18) = _
    after_results
    rfl
  rw [e]; exact rowOfVec_apply _ j

/-! ## What the second region finds

The first region writes only the hidden array; the host operations before it wrote the edge rows, which the second
stretch of host operations reads again. -/

theorem srcRow_kept (c : Dev nD) : W2 m ρ c (Proc.devRef .tc main_v1) = srcRow (m ((c : Thread nD τ).loc main_arg2)) :=
  (W2_of_ne m ρ c main_v1 (by decide)).trans (by
    show StableHlo.after hostOps0 (W0 m ρ c) (Proc.devRef .tc main_v1) = _
    after_results
    rfl)

theorem dstRow_kept (c : Dev nD) : W2 m ρ c (Proc.devRef .tc main_v3) = dstRow (m ((c : Thread nD τ).loc main_arg2)) :=
  (W2_of_ne m ρ c main_v3 (by decide)).trans (by
    show StableHlo.after hostOps0 (W0 m ρ c) (Proc.devRef .tc main_v3) = _
    after_results
    rfl)

theorem agg2_eq (c : Dev nD) :
    V3 m ρ c main_v29 = nbrSum (m ((c : Thread nD τ).loc main_arg2)) (W2 m ρ c (Proc.devRef .tc main_v19)) := by
  show StableHlo.after hostOps1 (W2 m ρ c) (Proc.devRef .tc main_v29) = _
  after_results
  rw [srcRow_kept, dstRow_kept]
  rfl

theorem hid_kept (c : Dev nD) : V3 m ρ c main_v19 = W2 m ρ c (Proc.devRef .tc main_v19) := by
  show StableHlo.after hostOps1 (W2 m ρ c) (Proc.devRef .tc main_v19) = _
  after_results

theorem arg_kept (c : Dev nD) (b : Ref sig .tc) (hb : ∀ w, Pipeline.arrRef spec0 w ≠ b)
    (h0 : StableHlo.after hostOps0 (W0 m ρ c) (Proc.devRef .tc b) = W0 m ρ c (Proc.devRef .tc b)) :
    W2 m ρ c (Proc.devRef .tc b) = W0 m ρ c (Proc.devRef .tc b) :=
  (W2_of_ne m ρ c b hb).trans h0

theorem wrel2_eq (c : Dev nD) : V3 m ρ c main_arg12 = m ((c : Thread nD τ).loc main_arg12) := by
  show StableHlo.after hostOps1 (W2 m ρ c) (Proc.devRef .tc main_arg12) = _
  after_results
  exact arg_kept m ρ c main_arg12 (by decide) (by after_results)

theorem wroot2_eq (c : Dev nD) : V3 m ρ c main_arg14 = m ((c : Thread nD τ).loc main_arg14) := by
  show StableHlo.after hostOps1 (W2 m ρ c) (Proc.devRef .tc main_arg14) = _
  after_results
  exact arg_kept m ρ c main_arg14 (by decide) (by after_results)

theorem bias2_eq (c : Dev nD) (j : Fin 64) : V3 m ρ c main_v30 (ix2 0 j) = m ((c : Thread nD τ).loc main_arg13) (ix1 j) := by
  have e : V3 m ρ c main_v30 = shapeCast S1x64 (m ((c : Thread nD τ).loc main_arg13)) shapeCasts_S64_S1x64 := by
    show StableHlo.after hostOps1 (W2 m ρ c) (Proc.devRef .tc main_v30) = _
    after_results
    exact congrArg (fun v => shapeCast S1x64 v shapeCasts_S64_S1x64) (arg_kept m ρ c main_arg13 (by decide) (by after_results))
  rw [e]; exact rowOfVec_apply _ j

end Cert.KernelIdeal.Host

end
-- ==== Proof.KernelRun.lean ====
/-
  The kernel's run, with its result named.

  At the last boundary the arguments are as launched, and the result array is the second region's output: the
  convolution of the hidden array with its neighbour sums, where the hidden array is what the first region left, the
  hidden layer of the input with ITS neighbour sums. Together: the network of the arguments.
-/
import proofs.«141708_j62921270886789_1_alg».proof.Proof.Gen.KernelIdeal.Frame
import proofs.«141708_j62921270886789_1_alg».proof.Proof.KernelBoundary
import proofs.«141708_j62921270886789_1_alg».proof.Proof.Spec
import proofs.«141708_j62921270886789_1_alg».proof.Proof.KernelBlocks
import proofs.«141708_j62921270886789_1_alg».proof.Proof.KernelHost

set_option maxRecDepth 16384

noncomputable section

namespace Cert.KernelIdeal.Net

open Cert.KernelIdeal Cert.KernelIdeal.Gen Cert.GraphConv
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The result, at the extended reals -/

variable (m : (ℓ : Loc nD τ sig) → Buf (Elt Ideal) ℓ) (ρ : Dev nD → PrngReg)

/-- The network of the launch memory's arguments: what the result array ends holding. -/
def result (c : Dev nD) : Nodes.Idx → EReal :=
  net (Host.nbrSum (m ((c : Thread nD τ).loc main_arg2))) (m ((c : Thread nD τ).loc main_arg0))
    (m ((c : Thread nD τ).loc main_arg5)) (m ((c : Thread nD τ).loc main_arg7)) (fun j => m ((c : Thread nD τ).loc main_arg6) (ix1 j))
    (fun j => m ((c : Thread nD τ).loc main_arg8) (ix1 j)) (fun j => m ((c : Thread nD τ).loc main_arg9) (ix1 j))
    (fun j => m ((c : Thread nD τ).loc main_arg10) (ix1 j)) (fun j => m ((c : Thread nD τ).loc main_arg11) (ix1 j))
    (m ((c : Thread nD τ).loc main_arg12)) (m ((c : Thread nD τ).loc main_arg14)) (fun j => m ((c : Thread nD τ).loc main_arg13) (ix1 j))

/-- The hidden array the first region leaves is the hidden layer of the input and its neighbour sums. -/
theorem hidden_array (c : Dev nD) :
    W2 m ρ c (Proc.devRef .tc main_v19)
      = hidden (Host.nbrSum (m ((c : Thread nD τ).loc main_arg2)) (m ((c : Thread nD τ).loc main_arg0))) (m ((c : Thread nD τ).loc main_arg0))
          (m ((c : Thread nD τ).loc main_arg5)) (m ((c : Thread nD τ).loc main_arg7)) (fun j => m ((c : Thread nD τ).loc main_arg6) (ix1 j))
          (fun j => m ((c : Thread nD τ).loc main_arg8) (ix1 j)) (fun j => m ((c : Thread nD τ).loc main_arg9) (ix1 j))
          (fun j => m ((c : Thread nD τ).loc main_arg10) (ix1 j)) (fun j => m ((c : Thread nD τ).loc main_arg11) (ix1 j)) := by
  refine (W2_arr m ρ c 9).trans ?_
  rw [Blocks.array1]
  unfold Blocks.out1
  rw [Host.agg1_eq, Host.x_eq, Host.wrel1_eq, Host.wroot1_eq]
  exact hidden_congr (Host.bias1_eq m ρ c) (Host.scale_eq m ρ c) (Host.shift_eq m ρ c) (Host.mean_eq m ρ c) (Host.var_eq m ρ c)

/-- The result array the second region leaves is the network of the arguments. -/
theorem result_array (c : Dev nD) : W4 m ρ c (Proc.devRef .tc main_v31) = result m c := by
  unfold result net
  refine (W4_arr m ρ c 5).trans ?_
  rw [Blocks.array2]
  unfold Blocks.out2
  rw [Host.agg2_eq, Host.hid_kept, Host.wrel2_eq, Host.wroot2_eq, hidden_array]
  exact lin_congr (Host.bias2_eq m ρ c)

/-- The kernel's run: the result array at the network of the arguments, the arguments unchanged. -/
theorem run : θ_run defs (onTc (τ := τ) (main (F := Ideal))) ⟨m, fun _ => 0, ρ⟩ (fun r => ∀ c : Dev nD,
      r.2.mem ((c.tc : Thread nD τ).loc main_v31) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_v31 (by decide))).trans (result_array m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c)⟩)
    (run_boundary m ρ)

end Cert.KernelIdeal.Net

end
-- ==== Proof.RefValue.lean ====
/-
  The reference, read stage by stage at the extended reals.

  The reference computes the hidden layer and the output by whole-array host operations. Each stage read at node `r`,
  feature `j` depends on one entry of each operand, a matrix product on the 64 entries of a row and a column; the
  one-row operands are broadcast down the rows. Chained from the last stage back, the rectified stage is the hidden
  layer of the input and its neighbour sums, and the last stage is the convolution of the rectified stage with ITS
  neighbour sums: the network of the arguments. The two scatter stages are the neighbour sums, by definition.
-/
import proofs.«141708_j62921270886789_1_alg».proof.Proof.Gen.ReferenceIdeal.Read
import proofs.«141708_j62921270886789_1_alg».proof.Proof.Spec
import Idealize.ShloMosaic.Lib.ValueIdx

set_option maxRecDepth 16384

noncomputable section

namespace Cert.ReferenceIdeal.RefValue

open Cert.ReferenceIdeal Cert.ReferenceIdeal.Gen Cert.ReferenceIdeal.Read Cert.GraphConv
open Idealize.ShloMosaic Idealize.ShloMosaic.ValueIdx

/-- The source node of every edge: row 0 of the edge list. -/
def srcRow (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- The destination node of every edge: row 1 of the edge list. -/
def dstRow (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The neighbour sums of node features `y` over edges with sources `s` and destinations `d`: the rows of `y` gathered
    at the sources (a negative source counted from the end), added into a zero array at the destinations. -/
def nbrSumOf (s d : (⟨S1600000, .i32⟩ : BufTy).Contents (Elt Ideal)) (y : (⟨S100000x64, .f32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Host.gather gather_S100000x64_S1600000x1_S1600000x64_1_0_n_n_0_1_164 y
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The neighbour sums over the edge list `e`. -/
def nbrSum (e : (⟨S2x1600000, .i32⟩ : BufTy).Contents (Elt Ideal)) (y : (⟨S100000x64, .f32⟩ : BufTy).Contents (Elt Ideal)) :
    (⟨S100000x64, .f32⟩ : BufTy).Contents (Elt Ideal) :=
  nbrSumOf (srcRow e) (dstRow e) y

variable (x0 : (⟨S100000x64, .f32⟩ : BufTy).Contents (Elt Ideal)) (x2 : (⟨S2x1600000, .i32⟩ : BufTy).Contents (Elt Ideal))
  (x5 : (⟨S64x64, .f32⟩ : BufTy).Contents (Elt Ideal)) (x6 : (⟨S64, .f32⟩ : BufTy).Contents (Elt Ideal))
  (x7 : (⟨S64x64, .f32⟩ : BufTy).Contents (Elt Ideal)) (x8 x9 x10 x11 : (⟨S64, .f32⟩ : BufTy).Contents (Elt Ideal))
  (x12 : (⟨S64x64, .f32⟩ : BufTy).Contents (Elt Ideal)) (x13 : (⟨S64, .f32⟩ : BufTy).Contents (Elt Ideal))
  (x14 : (⟨S64x64, .f32⟩ : BufTy).Contents (Elt Ideal))

/-- The first scatter stage is the neighbour sum of the input. -/
theorem agg1_stage : val_main_v13 (F := Ideal) x0 x2 = nbrSum x2 x0 := rfl

/-- The second scatter stage is the neighbour sum of the rectified stage. -/
theorem agg2_stage : val_main_v45 (F := Ideal) x0 x2 x5 x6 x7 x8 x9 x10 x11
    = nbrSum x2 (val_main_v35 (F := Ideal) x0 x2 x5 x6 x7 x8 x9 x10 x11) := rfl

/-! ## Where each stage reads its operands, at node `r`, feature `j` -/

theorem lrow14 (r : Fin 100000) (j k : Fin 64) : lidx_main_v14 (ix2 r j) k = ix2 r k :=
  funext fun a => Fin.ext (by match a with | ⟨0, _⟩ => rfl | ⟨1, _⟩ => rfl)
theorem rcol14 (r : Fin 100000) (j k : Fin 64) : ridx_main_v14 (ix2 r j) k = ix2 k j :=
  funext fun a => Fin.ext (by match a with | ⟨0, _⟩ => rfl | ⟨1, _⟩ => rfl)
theorem lrow18 (r : Fin 100000) (j k : Fin 64) : lidx_main_v18 (ix2 r j) k = ix2 r k :=
  funext fun a => Fin.ext (by match a with | ⟨0, _⟩ => rfl | ⟨1, _⟩ => rfl)
theorem rcol18 (r : Fin 100000) (j k : Fin 64) : ridx_main_v18 (ix2 r j) k = ix2 k j :=
  funext fun a => Fin.ext (by match a with | ⟨0, _⟩ => rfl | ⟨1, _⟩ => rfl)
theorem col16 (r : Fin 100000) (j : Fin 64) : idx_main_v15 (idx_main_v16 (ix2 r j)) = ix1 j :=
  funext fun a => Fin.ext (by match a with | ⟨0, _⟩ => rfl)
theorem col21 (r : Fin 100000) (j : Fin 64) : idx_main_v20 (idx_main_v21 (ix2 r j)) = ix1 j :=
  funext fun a => Fin.ext (by match a with | ⟨0, _⟩ => rfl)
theorem col27 (r : Fin 100000) (j : Fin 64) : idx_main_v26 (idx_main_v27 (ix2 r j)) = ix1 j :=
  funext fun a => Fin.ext (by match a with | ⟨0, _⟩ => rfl)
theorem col30 (r : Fin 100000) (j : Fin 64) : idx_main_v29 (idx_main_v30 (ix2 r j)) = ix1 j :=
  funext fun a => Fin.ext (by match a with | ⟨0, _⟩ => rfl)
theorem col33 (r : Fin 100000) (j : Fin 64) : idx_main_v32 (idx_main_v33 (ix2 r j)) = ix1 j :=
  funext fun a => Fin.ext (by match a with | ⟨0, _⟩ => rfl)

/-- The rectified stage at node `r`, feature `j` is the hidden layer of the input and its neighbour sums. -/
theorem hidden_stage_apply (r : Fin 100000) (j : Fin 64) :
    val_main_v35 (F := Ideal) x0 x2 x5 x6 x7 x8 x9 x10 x11 (ix2 r j)
      = hiddenAt (nbrSum x2 x0) x0 x5 x7 (fun j => x6 (ix1 j)) (fun j => x8 (ix1 j)) (fun j => x9 (ix1 j))
          (fun j => x10 (ix1 j)) (fun j => x11 (ix1 j)) r j := by
  rw [val_main_v35_apply, val_main_v34_apply, val_main_v31_apply, val_main_v28_apply, val_main_v22_apply, val_main_v19_apply,
    val_main_v17_apply, val_main_v14_apply, val_main_v18_apply, val_main_v16_apply, val_main_v15_apply, val_main_v21_apply,
    val_main_v20_apply, val_main_v27_apply, val_main_v26_apply, val_main_v25_apply, val_main_v24_apply, val_main_v23_apply,
    val_main_cst_1_apply, val_main_v30_apply, val_main_v29_apply, val_main_v33_apply, val_main_v32_apply,
    val_main_call0_v0_apply, val_main_call0_cst_apply]
  simp only [lrow14, rcol14, lrow18, rcol18, col16, col21, col27, col30, col33, agg1_stage]
  rfl

theorem lrow46 (r : Fin 100000) (j k : Fin 64) : lidx_main_v46 (ix2 r j) k = ix2 r k :=
  funext fun a => Fin.ext (by match a with | ⟨0, _⟩ => rfl | ⟨1, _⟩ => rfl)
theorem rcol46 (r : Fin 100000) (j k : Fin 64) : ridx_main_v46 (ix2 r j) k = ix2 k j :=
  funext fun a => Fin.ext (by match a with | ⟨0, _⟩ => rfl | ⟨1, _⟩ => rfl)
theorem lrow50 (r : Fin 100000) (j k : Fin 64) : lidx_main_v50 (ix2 r j) k = ix2 r k :=
  funext fun a => Fin.ext (by match a with | ⟨0, _⟩ => rfl | ⟨1, _⟩ => rfl)
theorem rcol50 (r : Fin 100000) (j k : Fin 64) : ridx_main_v50 (ix2 r j) k = ix2 k j :=
  funext fun a => Fin.ext (by match a with | ⟨0, _⟩ => rfl | ⟨1, _⟩ => rfl)
theorem col48 (r : Fin 100000) (j : Fin 64) : idx_main_v47 (idx_main_v48 (ix2 r j)) = ix1 j :=
  funext fun a => Fin.ext (by match a with | ⟨0, _⟩ => rfl)

/-- The rectified stage, as an array, is the hidden layer of the input and its neighbour sums. -/
theorem hidden_stage :
    val_main_v35 (F := Ideal) x0 x2 x5 x6 x7 x8 x9 x10 x11
      = hidden (nbrSum x2 x0) x0 x5 x7 (fun j => x6 (ix1 j)) (fun j => x8 (ix1 j)) (fun j => x9 (ix1 j))
          (fun j => x10 (ix1 j)) (fun j => x11 (ix1 j)) := by
  funext i
  obtain ⟨r, j, rfl⟩ : ∃ (r : Fin 100000) (j : Fin 64), i = ix2 r j := ⟨i 0, i 1, eq_ix2 i⟩
  exact hidden_stage_apply x0 x2 x5 x6 x7 x8 x9 x10 x11 r j

/-- The last stage at node `r`, feature `j` is the convolution of the rectified stage with its neighbour sums. -/
theorem out_stage_apply (r : Fin 100000) (j : Fin 64) :
    val_main_v51 (F := Ideal) x0 x2 x5 x6 x7 x8 x9 x10 x11 x12 x13 x14 (ix2 r j)
      = linAt (nbrSum x2 (val_main_v35 (F := Ideal) x0 x2 x5 x6 x7 x8 x9 x10 x11)) (val_main_v35 (F := Ideal) x0 x2 x5 x6 x7 x8 x9 x10 x11)
          x12 x14 (fun j => x13 (ix1 j)) r j := by
  rw [val_main_v51_apply, val_main_v49_apply, val_main_v46_apply, val_main_v48_apply, val_main_v47_apply, val_main_v50_apply]
  simp only [lrow46, rcol46, lrow50, rcol50, col48, agg2_stage]
  rfl

/-- The last stage, as an array, is the network of the arguments. -/
theorem result_stage :
    val_main_v51 (F := Ideal) x0 x2 x5 x6 x7 x8 x9 x10 x11 x12 x13 x14
      = net (nbrSum x2) x0 x5 x7 (fun j => x6 (ix1 j)) (fun j => x8 (ix1 j)) (fun j => x9 (ix1 j)) (fun j => x10 (ix1 j))
          (fun j => x11 (ix1 j)) x12 x14 (fun j => x13 (ix1 j)) := by
  funext i
  obtain ⟨r, j, rfl⟩ : ∃ (r : Fin 100000) (j : Fin 64), i = ix2 r j := ⟨i 0, i 1, eq_ix2 i⟩
  rw [out_stage_apply, hidden_stage]
  rfl

end Cert.ReferenceIdeal.RefValue

end
-- ==== Proof.lean ====
/-
  A two-layer graph network on 100000 nodes with 64 features, against its reference, over the extended reals.

  Both programs compute, for node features `x` and an edge list,
      h   = max(((conv₁(S x, x) − μ) · (σ² + ε)^(−1/2)) · γ + β, 0),      out = conv₂(S h, h),
  where `S y` is the sum of `y`'s rows over each node's incoming edges and `conv(a, y) = (a · W_rel + b) + y · W_root`.
  The neighbour sums are host operations in both programs, the same ones. The kernel computes each convolution 5000 rows
  at a time on the matrix unit, from operands narrowed to a shorter float format; the reference computes each as one
  whole matrix product. At the extended reals the narrowing is the identity and a matrix product into a zero
  accumulator is the plain sum over the 64 contracted features, so both sides are the same sums, associated the same
  way, and no algebraic law is used: the precondition (finite inputs) is never opened.

  The kernel's side: each body's stored value at an entry of its block (KernelBody), each region's output array as one
  function of the arrays the region finds (KernelBlocks), those arrays in terms of the launch memory (KernelHost), and
  the run over the two regions with the result array named (KernelBoundary, KernelRun). The reference's side: its
  generated run, read stage by stage at an index (RefValue). Both end at `GraphConv.net` (Spec) of the arguments.
-/
import proofs.«141708_j62921270886789_1_alg».proof.Defs
import proofs.«141708_j62921270886789_1_alg».proof.Proof.Gen.Kernel
import proofs.«141708_j62921270886789_1_alg».proof.Proof.Gen.Kernel.Skeleton
import proofs.«141708_j62921270886789_1_alg».proof.Proof.Gen.Kernel.Launch
import proofs.«141708_j62921270886789_1_alg».proof.Proof.Gen.Kernel.Points
import proofs.«141708_j62921270886789_1_alg».proof.Proof.Gen.Kernel.Frame
import proofs.«141708_j62921270886789_1_alg».proof.Proof.Gen.KernelIdeal
import proofs.«141708_j62921270886789_1_alg».proof.Proof.Gen.KernelIdeal.Skeleton
import proofs.«141708_j62921270886789_1_alg».proof.Proof.Gen.KernelIdeal.Launch
import proofs.«141708_j62921270886789_1_alg».proof.Proof.Gen.KernelIdeal.Points
import proofs.«141708_j62921270886789_1_alg».proof.Proof.Gen.KernelIdeal.Frame
import proofs.«141708_j62921270886789_1_alg».proof.Proof.Gen.ReferenceIdeal
import proofs.«141708_j62921270886789_1_alg».proof.Proof.Gen.Pre_finite_inputs
import proofs.«141708_j62921270886789_1_alg».proof.Proof.Gen.ReferenceIdeal.Run
import proofs.«141708_j62921270886789_1_alg».proof.Proof.Gen.ReferenceIdeal.Read
import proofs.«141708_j62921270886789_1_alg».proof.Proof.KernelRun
import proofs.«141708_j62921270886789_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- Both programs end with the network of the arguments in their result array: the kernel by its run over the two
    regions, the reference by its run read stage by stage; the two programs' neighbour sums are the same host
    operations on the same edge list. -/
theorem algebraic : Cert.algebraic_KernelIdeal_ReferenceIdeal := by
  intro m ρ m' ρ' _ hagree
  refine ⟨fun c => Cert.KernelIdeal.Net.result m c, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.ReferenceIdeal.RefValue.result_stage]
  obtain ⟨h0, -, h2, -, -, h5, h6, h7, h8, h9, h10, h11, h12, h13, h14⟩ := hagree c
  rw [h0, h2, h5, h6, h7, h8, h9, h10, h11, h12, h13, h14]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
